-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x25 : Shape := ⟨2, ![2000000, 25]⟩
abbrev S_ : Shape := ⟨0, ![]⟩

class Facts : Prop where
  bcast_S_S2000000x25 : S_.BroadcastsInDim S2000000x25 (![] : Fin 0 → Fin S2000000x25.rank)
  reducesTo_S2000000x25_S_d0_1 : S2000000x25.ReducesTo [0, 1] S_
  h_S_ : 0 < S_.numel

variable [Facts]

def fn {F : FTy → Type} [FloatOps F] (main_arg0 : FVec F S2000000x25 .f32) (main_arg1 : FVec F S2000000x25 .f32) : IVec S_ 1 :=
  let main_v0 : FVec F S2000000x25 .f32 := Host.absf main_arg0
  let main_cst : FVec F S_ .f32 := constant S_ .f32 0x7F800000#32
  let main_v1 : FVec F S2000000x25 .f32 := broadcastInDim S2000000x25 ![] bcast_S_S2000000x25 main_cst
  let main_v2 : IVec S2000000x25 1 := cmpf .olt main_v0 main_v1
  let main_c : IVec S_ 1 := constantI S_ 1 1#1
  let main_v3 : IVec S_ 1 := (fun x v => Host.reduce IntOp.andi x v reducesTo_S2000000x25_S_d0_1 h_S_) main_v2 main_c
  let main_v4 : FVec F S2000000x25 .f32 := Host.absf main_arg1
  let main_cst_0 : FVec F S_ .f32 := constant S_ .f32 0x7F800000#32
  let main_v5 : FVec F S2000000x25 .f32 := broadcastInDim S2000000x25 ![] bcast_S_S2000000x25 main_cst_0
  let main_v6 : IVec S2000000x25 1 := cmpf .olt main_v4 main_v5
  let main_c_1 : IVec S_ 1 := constantI S_ 1 1#1
  let main_v7 : IVec S_ 1 := (fun x v => Host.reduce IntOp.andi x v reducesTo_S2000000x25_S_d0_1 h_S_) main_v6 main_c_1
  let main_v8 : IVec S_ 1 := andi main_v3 main_v7
  main_v8
-- ==== Kernel.lean ====
abbrev S2000000x25 : Shape := ⟨2, ![2000000, 25]⟩
abbrev S2000000x5 : Shape := ⟨2, ![2000000, 5]⟩
abbrev S3200x25 : Shape := ⟨2, ![3200, 25]⟩
abbrev S3200x5 : Shape := ⟨2, ![3200, 5]⟩
abbrev S25x3200 : Shape := ⟨2, ![25, 3200]⟩
abbrev S1x3200 : Shape := ⟨2, ![1, 3200]⟩
abbrev S5x3200 : Shape := ⟨2, ![5, 3200]⟩

abbrev nBuf : Space → Nat
  | .hbm => 4
  | .vmem => 8
  | .smem => 0
  | _ => 0

abbrev bufTy : (tb : Table) → Fin (tcTables nBuf tb) → BufTy
  | .hbm, ⟨0, _⟩ => ⟨S2000000x25, .f32⟩
  | .hbm, ⟨1, _⟩ => ⟨S2000000x25, .f32⟩
  | .hbm, ⟨2, _⟩ => ⟨S2000000x5, .f32⟩
  | .hbm, ⟨3, _⟩ => ⟨S2000000x5, .f32⟩
  | .local _ .vmem, ⟨0, _⟩ => ⟨S3200x25, .f32⟩
  | .local _ .vmem, ⟨1, _⟩ => ⟨S3200x25, .f32⟩
  | .local _ .vmem, ⟨2, _⟩ => ⟨S3200x25, .f32⟩
  | .local _ .vmem, ⟨3, _⟩ => ⟨S3200x25, .f32⟩
  | .local _ .vmem, ⟨4, _⟩ => ⟨S3200x5, .f32⟩
  | .local _ .vmem, ⟨5, _⟩ => ⟨S3200x5, .f32⟩
  | .local _ .vmem, ⟨6, _⟩ => ⟨S3200x5, .f32⟩
  | .local _ .vmem, ⟨7, _⟩ => ⟨S3200x5, .f32⟩
  | _, _ => ⟨S2000000x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S3200x25_S3200x25_0_0 : ∀ a, (![0, 0] : Fin 2 → Nat) a + S3200x25.size a ≤ S3200x25.size a
  h_S3200x25 : 0 < S3200x25.numel
  transposes_S3200x25_p1_0_S25x3200 : S3200x25.Transposes [1, 0] S25x3200
  slices_S25x3200_o20_0_S1x3200 : S25x3200.Slices ![20, 0] S1x3200
  slices_S25x3200_o21_0_S1x3200 : S25x3200.Slices ![21, 0] S1x3200
  slices_S25x3200_o22_0_S1x3200 : S25x3200.Slices ![22, 0] S1x3200
  slices_S25x3200_o23_0_S1x3200 : S25x3200.Slices ![23, 0] S1x3200
  slices_S25x3200_o24_0_S1x3200 : S25x3200.Slices ![24, 0] S1x3200
  slices_S25x3200_o16_0_S1x3200 : S25x3200.Slices ![16, 0] S1x3200
  slices_S25x3200_o17_0_S1x3200 : S25x3200.Slices ![17, 0] S1x3200
  slices_S25x3200_o18_0_S1x3200 : S25x3200.Slices ![18, 0] S1x3200
  slices_S25x3200_o19_0_S1x3200 : S25x3200.Slices ![19, 0] S1x3200
  slices_S25x3200_o12_0_S1x3200 : S25x3200.Slices ![12, 0] S1x3200
  slices_S25x3200_o13_0_S1x3200 : S25x3200.Slices ![13, 0] S1x3200
  slices_S25x3200_o14_0_S1x3200 : S25x3200.Slices ![14, 0] S1x3200
  slices_S25x3200_o8_0_S1x3200 : S25x3200.Slices ![8, 0] S1x3200
  slices_S25x3200_o9_0_S1x3200 : S25x3200.Slices ![9, 0] S1x3200
  slices_S25x3200_o4_0_S1x3200 : S25x3200.Slices ![4, 0] S1x3200
  concatenates_S1x3200_S1x3200_S1x3200_S1x3200_S1x3200_S5x3200_d0 : Shape.Concatenates [S1x3200, S1x3200, S1x3200, S1x3200, S1x3200] S5x3200 0
  transposes_S5x3200_p1_0_S3200x5 : S5x3200.Transposes [1, 0] S3200x5
  inb_S3200x5_S3200x5_0_0 : ∀ a, (![0, 0] : Fin 2 → Nat) a + S3200x5.size a ≤ S3200x5.size a
  h_S3200x5 : 0 < S3200x5.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x25.size a ≤ S2000000x25.size a
  hwx0_0 : ∀ i : grid0.Coords, EltTy.bits .f32 = 32 ∨ (Rect.block (s := S2000000x25) S3200x25.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x25.size a ≤ S2000000x25.size a
  hwx0_1 : ∀ i : grid0.Coords, EltTy.bits .f32 = 32 ∨ (Rect.block (s := S2000000x25) S3200x25.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x5.size a ≤ S2000000x5.size a
  hwx0_2 : ∀ i : grid0.Coords, EltTy.bits .f32 = 32 ∨ (Rect.block (s := S2000000x5) S3200x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x5.size a ≤ S2000000x5.size a
  hwx0_3 : ∀ i : grid0.Coords, EltTy.bits .f32 = 32 ∨ (Rect.block (s := S2000000x5) S3200x5.size (cc0_transform_3 i) (hinb0_3 i)).WholeWords (EltTy.packing .f32)

variable [Facts₀]

abbrev win0_0 : Pipeline.Window sig grid0 :=
  Pipeline.Window.ofSpec (Memref.whole main_arg0) S3200x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3200x25.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S3200x5.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S3200x5.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000000x25 : Shape := ⟨2, ![2000000, 25]⟩
abbrev S2000000x5x5 : Shape := ⟨3, ![2000000, 5, 5]⟩
abbrev S2000000x1x1 : Shape := ⟨3, ![2000000, 1, 1]⟩
abbrev S2000000 : Shape := ⟨1, ![2000000]⟩
abbrev S_ : Shape := ⟨0, ![]⟩
abbrev S2000000x1 : Shape := ⟨2, ![2000000, 1]⟩
abbrev S2000000x5 : Shape := ⟨2, ![2000000, 5]⟩

abbrev nBuf : Space → Nat
  | .hbm => 147
  | .vmem => 0
  | .smem => 0
  | _ => 0

abbrev hbmTy0_0 (i : Nat) : BufTy := match i % 128 with
  | 0 => ⟨S2000000x25, .f32⟩
  | 1 => ⟨S2000000x25, .f32⟩
  | 2 => ⟨S2000000x5x5, .f32⟩
  | 3 => ⟨S2000000x5x5, .f32⟩
  | 4 => ⟨S2000000x1x1, .f32⟩
  | 5 => ⟨S2000000, .f32⟩
  | 6 => ⟨S_, .f32⟩
  | 7 => ⟨S2000000, .f32⟩
  | 8 => ⟨S2000000x1x1, .f32⟩
  | 9 => ⟨S2000000, .f32⟩
  | 10 => ⟨S2000000x1x1, .f32⟩
  | 11 => ⟨S2000000, .f32⟩
  | 12 => ⟨S2000000, .f32⟩
  | 13 => ⟨S2000000x1x1, .f32⟩
  | 14 => ⟨S2000000, .f32⟩
  | 15 => ⟨S2000000, .f32⟩
  | 16 => ⟨S2000000x1x1, .f32⟩
  | 17 => ⟨S2000000, .f32⟩
  | 18 => ⟨S2000000x1x1, .f32⟩
  | 19 => ⟨S2000000, .f32⟩
  | 20 => ⟨S2000000, .f32⟩
  | 21 => ⟨S2000000x1x1, .f32⟩
  | 22 => ⟨S2000000, .f32⟩
  | 23 => ⟨S2000000x1x1, .f32⟩
  | 24 => ⟨S2000000, .f32⟩
  | 25 => ⟨S2000000, .f32⟩
  | 26 => ⟨S2000000x1x1, .f32⟩
  | 27 => ⟨S2000000, .f32⟩
  | 28 => ⟨S2000000, .f32⟩
  | 29 => ⟨S2000000, .f32⟩
  | 30 => ⟨S2000000x1x1, .f32⟩
  | 31 => ⟨S2000000, .f32⟩
  | 32 => ⟨S2000000x1x1, .f32⟩
  | 33 => ⟨S2000000, .f32⟩
  | 34 => ⟨S2000000, .f32⟩
  | 35 => ⟨S2000000x1x1, .f32⟩
  | 36 => ⟨S2000000, .f32⟩
  | 37 => ⟨S2000000x1x1, .f32⟩
  | 38 => ⟨S2000000, .f32⟩
  | 39 => ⟨S2000000, .f32⟩
  | 40 => ⟨S2000000, .f32⟩
  | 41 => ⟨S2000000x1x1, .f32⟩
  | 42 => ⟨S2000000, .f32⟩
  | 43 => ⟨S2000000x1x1, .f32⟩
  | 44 => ⟨S2000000, .f32⟩
  | 45 => ⟨S2000000, .f32⟩
  | 46 => ⟨S2000000x1x1, .f32⟩
  | 47 => ⟨S2000000, .f32⟩
  | 48 => ⟨S2000000, .f32⟩
  | 49 => ⟨S2000000, .f32⟩
  | 50 => ⟨S2000000x1x1, .f32⟩
  | 51 => ⟨S2000000, .f32⟩
  | 52 => ⟨S2000000x1x1, .f32⟩
  | 53 => ⟨S2000000, .f32⟩
  | 54 => ⟨S2000000, .f32⟩
  | 55 => ⟨S2000000x1x1, .f32⟩
  | 56 => ⟨S2000000, .f32⟩
  | 57 => ⟨S2000000x1x1, .f32⟩
  | 58 => ⟨S2000000, .f32⟩
  | 59 => ⟨S2000000, .f32⟩
  | 60 => ⟨S2000000, .f32⟩
  | 61 => ⟨S2000000x1x1, .f32⟩
  | 62 => ⟨S2000000, .f32⟩
  | 63 => ⟨S2000000x1x1, .f32⟩
  | 64 => ⟨S2000000, .f32⟩
  | 65 => ⟨S2000000, .f32⟩
  | 66 => ⟨S2000000, .f32⟩
  | 67 => ⟨S2000000x1x1, .f32⟩
  | 68 => ⟨S2000000, .f32⟩
  | 69 => ⟨S2000000x1x1, .f32⟩
  | 70 => ⟨S2000000, .f32⟩
  | 71 => ⟨S2000000, .f32⟩
  | 72 => ⟨S2000000x1x1, .f32⟩
  | 73 => ⟨S2000000, .f32⟩
  | 74 => ⟨S2000000, .f32⟩
  | 75 => ⟨S2000000, .f32⟩
  | 76 => ⟨S2000000x1, .f32⟩
  | 77 => ⟨S2000000x1, .f32⟩
  | 78 => ⟨S2000000x1, .f32⟩
  | 79 => ⟨S2000000x1, .f32⟩
  | 80 => ⟨S2000000x1, .f32⟩
  | 81 => ⟨S2000000x5, .f32⟩
  | 82 => ⟨S2000000x1x1, .f32⟩
  | 83 => ⟨S2000000, .f32⟩
  | 84 => ⟨S_, .f32⟩
  | 85 => ⟨S2000000, .f32⟩
  | 86 => ⟨S2000000, .f32⟩
  | 87 => ⟨S2000000x1x1, .f32⟩
  | 88 => ⟨S2000000, .f32⟩
  | 89 => ⟨S_, .f32⟩
  | 90 => ⟨S2000000, .f32⟩
  | 91 => ⟨S2000000, .f32⟩
  | 92 => ⟨S2000000x1x1, .f32⟩
  | 93 => ⟨S2000000, .f32⟩
  | 94 => ⟨S_, .f32⟩
  | 95 => ⟨S2000000, .f32⟩
  | 96 => ⟨S2000000, .f32⟩
  | 97 => ⟨S2000000x1x1, .f32⟩
  | 98 => ⟨S2000000, .f32⟩
  | 99 => ⟨S_, .f32⟩
  | 100 => ⟨S2000000, .f32⟩
  | 101 => ⟨S2000000, .f32⟩
  | 102 => ⟨S_, .f32⟩
  | 103 => ⟨S2000000, .f32⟩
  | 104 => ⟨S2000000, .f32⟩
  | 105 => ⟨S2000000, .f32⟩
  | 106 => ⟨S2000000x1x1, .f32⟩
  | 107 => ⟨S2000000, .f32⟩
  | 108 => ⟨S2000000, .f32⟩
  | 109 => ⟨S2000000, .f32⟩
  | 110 => ⟨S_, .f32⟩
  | 111 => ⟨S2000000, .f32⟩
  | 112 => ⟨S2000000, .f32⟩
  | 113 => ⟨S2000000, .f32⟩
  | 114 => ⟨S2000000x1x1, .f32⟩
  | 115 => ⟨S2000000, .f32⟩
  | 116 => ⟨S2000000, .f32⟩
  | 117 => ⟨S2000000, .f32⟩
  | 118 => ⟨S2000000, .f32⟩
  | 119 => ⟨S_, .f32⟩
  | 120 => ⟨S2000000, .f32⟩
  | 121 => ⟨S2000000, .f32⟩
  | 122 => ⟨S2000000, .f32⟩
  | 123 => ⟨S2000000x1x1, .f32⟩
  | 124 => ⟨S2000000, .f32⟩
  | 125 => ⟨S2000000, .f32⟩
  | 126 => ⟨S2000000x1x1, .f32⟩
  | 127 => ⟨S2000000, .f32⟩
  | _ => ⟨S2000000x25, .f32⟩

abbrev hbmTy0_1 (i : Nat) : BufTy := match i % 128 with
  | 0 => ⟨S_, .f32⟩
  | 1 => ⟨S2000000, .f32⟩
  | 2 => ⟨S2000000, .f32⟩
  | 3 => ⟨S2000000, .f32⟩
  | 4 => ⟨S2000000, .f32⟩
  | 5 => ⟨S2000000, .f32⟩
  | 6 => ⟨S_, .f32⟩
  | 7 => ⟨S2000000, .f32⟩
  | 8 => ⟨S2000000, .f32⟩
  | 9 => ⟨S2000000, .f32⟩
  | 10 => ⟨S2000000x1x1, .f32⟩
  | 11 => ⟨S2000000, .f32⟩
  | 12 => ⟨S2000000, .f32⟩
  | 13 => ⟨S2000000x1, .f32⟩
  | 14 => ⟨S2000000x1, .f32⟩
  | 15 => ⟨S2000000x1, .f32⟩
  | 16 => ⟨S2000000x1, .f32⟩
  | 17 => ⟨S2000000x1, .f32⟩
  | 18 => ⟨S2000000x5, .f32⟩
  | _ => ⟨S2000000x25, .f32⟩

abbrev hbmTy (i : Nat) : BufTy := match i / 128 with
  | 0 => hbmTy0_0 i
  | 1 => hbmTy0_1 i
  | _ => ⟨S2000000x25, .f32⟩

abbrev bufTy : (tb : Table) → Fin (tcTables nBuf tb) → BufTy
  | .hbm, ⟨i, _⟩ => hbmTy i
  | _, _ => ⟨S2000000x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_cst_0 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_cst_1 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_cst_2 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_cst_3 : Ref sig .tc := ⟨.hbm, 99, rfl⟩
abbrev main_v93 : Ref sig .tc := ⟨.hbm, 100, rfl⟩
abbrev main_v94 : Ref sig .tc := ⟨.hbm, 101, rfl⟩
abbrev main_cst_4 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_cst_5 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_cst_6 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_cst_7 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_cst_8 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩

abbrev nD : Nat := 1
abbrev τ : Topo := Topo.v7x

variable {F : FTy → Type} [FloatOps F]

class Facts₀ : Prop where
  shapeCasts_S2000000x25_S2000000x5x5 : S2000000x25.ShapeCasts S2000000x5x5
  slices_S2000000x5x5_S2000000x1x1_0_0_0 : S2000000x5x5.Slices ![0, 0, 0] S2000000x1x1
  shapeCasts_S2000000x1x1_S2000000 : S2000000x1x1.ShapeCasts S2000000
  bcast_S_S2000000 : S_.BroadcastsInDim S2000000 (![] : Fin 0 → Fin S2000000.rank)
  slices_S2000000x5x5_S2000000x1x1_0_4_0 : S2000000x5x5.Slices ![0, 4, 0] S2000000x1x1
  slices_S2000000x5x5_S2000000x1x1_0_4_1 : S2000000x5x5.Slices ![0, 4, 1] S2000000x1x1
  slices_S2000000x5x5_S2000000x1x1_0_3_1 : S2000000x5x5.Slices ![0, 3, 1] S2000000x1x1
  slices_S2000000x5x5_S2000000x1x1_0_4_2 : S2000000x5x5.Slices ![0, 4, 2] S2000000x1x1
  slices_S2000000x5x5_S2000000x1x1_0_3_2 : S2000000x5x5.Slices ![0, 3, 2] S2000000x1x1
  slices_S2000000x5x5_S2000000x1x1_0_2_2 : S2000000x5x5.Slices ![0, 2, 2] S2000000x1x1
  slices_S2000000x5x5_S2000000x1x1_0_4_3 : S2000000x5x5.Slices ![0, 4, 3] S2000000x1x1
  slices_S2000000x5x5_S2000000x1x1_0_3_3 : S2000000x5x5.Slices ![0, 3, 3] S2000000x1x1
  slices_S2000000x5x5_S2000000x1x1_0_2_3 : S2000000x5x5.Slices ![0, 2, 3] S2000000x1x1
  slices_S2000000x5x5_S2000000x1x1_0_1_3 : S2000000x5x5.Slices ![0, 1, 3] S2000000x1x1
  slices_S2000000x5x5_S2000000x1x1_0_4_4 : S2000000x5x5.Slices ![0, 4, 4] S2000000x1x1
  slices_S2000000x5x5_S2000000x1x1_0_3_4 : S2000000x5x5.Slices ![0, 3, 4] S2000000x1x1
  slices_S2000000x5x5_S2000000x1x1_0_2_4 : S2000000x5x5.Slices ![0, 2, 4] S2000000x1x1
  slices_S2000000x5x5_S2000000x1x1_0_1_4 : S2000000x5x5.Slices ![0, 1, 4] S2000000x1x1
  slices_S2000000x5x5_S2000000x1x1_0_0_4 : S2000000x5x5.Slices ![0, 0, 4] S2000000x1x1
  bcast_S2000000_S2000000x1_0 : S2000000.BroadcastsInDim S2000000x1 (![0] : Fin 1 → Fin S2000000x1.rank)
  concatenates_S2000000x1_S2000000x1_S2000000x1_S2000000x1_S2000000x1_S2000000x5_d1 : Shape.Concatenates [S2000000x1, S2000000x1, S2000000x1, S2000000x1, S2000000x1] S2000000x5 1

variable [Facts₀]

class Facts : Prop extends Facts₀ where

variable [Facts]
-- ==== Proof.Rates.lean ====
/-
  The returning-rate functions of one sample, on the extended reals.

  A sample is a 5 × 5 grid of probabilities, flattened row by row into 25 numbers `a` (entry (i, j) at position
  5·i + j), with a mask `b` of the same layout. Two rows of five numbers are computed from it.

  `chain a b`: the chained products along the anti-diagonal tiers,
      0,
      a₄₀·a₄₁·b₃₁,
      a₄₀·a₄₂ + a₃₁·a₃₂·b₂₂,
      a₄₀·a₄₃ + a₃₁·a₃₃ + a₂₂·a₂₃·b₁₃,
      a₄₀·a₄₄ + a₃₁·a₃₄ + a₂₂·a₂₄ + a₁₃·a₁₄·b₀₄,
  the mask multiplying only the last product of each sum, every sum grouped from the left.

  `compl a b`: with qᵢⱼ = 1 − aᵢⱼ the complement chain
      0,
      q₃₁·(1 − q₄₀)·b₃₁,
      q₂₂·(1 − q₄₀·q₃₁)·b₂₂,
      q₁₃·(1 − q₄₀·q₃₁·q₂₂)·b₁₃,
      (1 − a₀₄)·(1 − q₄₀·q₃₁·q₂₂·q₁₃)·b₀₄,
  every product grouped from the left.

  Both are stated with the two float words that occur (0.0 and 1.0) kept as words: neither is ever evaluated, and no
  law of arithmetic is used anywhere — the two programs compared compute these very expressions and differ only in how
  they lay the 25 numbers out. `chainRows` / `complRows` apply them to every row of an array of R samples.
-/
import Idealize.ShloMosaic.PureOps.Ideal
import Idealize.ShloMosaic.Lib.ValueIdx

noncomputable section

namespace Cert.Rates

open Idealize.ShloMosaic Idealize.ShloMosaic.ValueIdx

/-- The float word of 0.0, as an extended real. -/
abbrev zero : EReal := Ideal.ofBits .f32 0x00000000#32
/-- The float word of 1.0, as an extended real. -/
abbrev one : EReal := Ideal.ofBits .f32 0x3F800000#32

/-- The chained rates of one sample: entry (i, j) of the grid is `a (5·i + j)`. -/
def chain (a b : Fin 25 → EReal) : Fin 5 → EReal := fun q => match q with
  | ⟨0, _⟩ => zero
  | ⟨1, _⟩ => a 20 * a 21 * b 16
  | ⟨2, _⟩ => a 20 * a 22 + a 16 * a 17 * b 12
  | ⟨3, _⟩ => a 20 * a 23 + a 16 * a 18 + a 12 * a 13 * b 8
  | ⟨4, _⟩ => a 20 * a 24 + a 16 * a 19 + a 12 * a 14 + a 8 * a 9 * b 4
  | ⟨_ + 5, h⟩ => absurd h (Nat.not_lt.2 (Nat.le_add_left _ _))

/-- The complement-chain rates of one sample. -/
def compl (a b : Fin 25 → EReal) : Fin 5 → EReal := fun q => match q with
  | ⟨0, _⟩ => zero
  | ⟨1, _⟩ => (one - a 16) * (one - (one - a 20)) * b 16
  | ⟨2, _⟩ => (one - a 12) * (one - (one - a 20) * (one - a 16)) * b 12
  | ⟨3, _⟩ => (one - a 8) * (one - (one - a 20) * (one - a 16) * (one - a 12)) * b 8
  | ⟨4, _⟩ => (one - a 4) * (one - (one - a 20) * (one - a 16) * (one - a 12) * (one - a 8)) * b 4
  | ⟨_ + 5, h⟩ => absurd h (Nat.not_lt.2 (Nat.le_add_left _ _))

/-- Row `r` of an array of `R` samples. -/
abbrev row {R : Nat} (x : (⟨2, ![R, 25]⟩ : Shape).Idx → EReal) (r : Fin R) : Fin 25 → EReal := fun k => x (ix2 r k)

/-- The chained rates of every sample of an array: row `r` of the result is `chain` of row `r` of the two arrays. -/
def chainRows {R : Nat} (x msk : (⟨2, ![R, 25]⟩ : Shape).Idx → EReal) : (⟨2, ![R, 5]⟩ : Shape).Idx → EReal :=
  fun i => chain (row x (i 0)) (row msk (i 0)) (i 1)

/-- The complement-chain rates of every sample of an array. -/
def complRows {R : Nat} (x msk : (⟨2, ![R, 25]⟩ : Shape).Idx → EReal) : (⟨2, ![R, 5]⟩ : Shape).Idx → EReal :=
  fun i => compl (row x (i 0)) (row msk (i 0)) (i 1)

theorem chainRows_apply {R : Nat} (x msk : (⟨2, ![R, 25]⟩ : Shape).Idx → EReal) (r : Fin R) (q : Fin 5) :
    chainRows x msk (ix2 r q) = chain (row x r) (row msk r) q := rfl

theorem complRows_apply {R : Nat} (x msk : (⟨2, ![R, 25]⟩ : Shape).Idx → EReal) (r : Fin R) (q : Fin 5) :
    complRows x msk (ix2 r q) = compl (row x r) (row msk r) q := rfl

end Cert.Rates

end
-- ==== Proof.BlockRates.lean ====
/-
  What the kernel's body leaves in its two output blocks, entry by entry.

  The body loads a block of 3200 samples (3200 × 25) of each input, transposes both to 25 × 3200 so that one grid entry
  of all samples is one row, slices the rows it needs, combines them lane by lane, stacks five result rows into 5 × 3200
  and transposes back to 3200 × 5. Read at (p, q) the block is therefore result row q at lane p, and a sliced row c of
  the transposed input at lane p is entry c of sample p: the block is `Rates.chainRows` (first output) and
  `Rates.complRows` (second output) of the two loaded blocks. No arithmetic law is involved.
-/
import proofs.«145309_j19078244729512_2_alg».proof.Proof.Gen.KernelIdeal.Value
import proofs.«145309_j19078244729512_2_alg».proof.Proof.Rates
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.Rates

/-- Row `c` sliced out of the transposed block, read at a lane `z` whose position is `p`, is entry `c` of sample `p`
    of the block. -/
theorem pick (P : Vec Ideal S3200x25 .f32) (c : Nat) (hc : c < 25)
    (hs : S25x3200.Slices ![c, 0] S1x3200) (ht : S3200x25.Transposes [1, 0] S25x3200)
    (p : Fin 3200) (z : S1x3200.Idx) (hz : (z 1).val = p.val) :
    extractStridedSlice S1x3200 ![c, 0] (transpose S25x3200 [1, 0] P ht) hs z = P (ix2 p ⟨c, hc⟩) := by
  refine (extractStridedSlice_apply ![c, 0] _ hs z (ix2 ⟨c, hc⟩ p) (fun a => ?_)).trans
    (transpose_apply [1, 0] P ht (ix2 ⟨c, hc⟩ p) (ix2 p ⟨c, hc⟩) (fun b => ?_))
  · match a with
    | ⟨0, _⟩ => have h0 : (z 0).val < 1 := (z 0).isLt; show c = c + (z 0).val; omega
    | ⟨1, _⟩ => show p.val = 0 + (z 1).val; omega
  · match b with
    | ⟨0, _⟩ => rfl
    | ⟨1, _⟩ => rfl

/-- The same at the lane under entry (p, q) of the first output block. -/
theorem pick2 (P : Vec Ideal S3200x25 .f32) (c : Nat) (hc : c < 25)
    (hs : S25x3200.Slices ![c, 0] S1x3200) (ht : S3200x25.Transposes [1, 0] S25x3200) (p : Fin 3200) (q : Fin 5) :
    extractStridedSlice S1x3200 ![c, 0] (transpose S25x3200 [1, 0] P ht) hs (Value.ix2_0 (ix2 p q)) = P (ix2 p ⟨c, hc⟩) :=
  pick P c hc hs ht p _ rfl

/-- The same at the lane under entry (p, q) of the second output block. -/
theorem pick3 (P : Vec Ideal S3200x25 .f32) (c : Nat) (hc : c < 25)
    (hs : S25x3200.Slices ![c, 0] S1x3200) (ht : S3200x25.Transposes [1, 0] S25x3200) (p : Fin 3200) (q : Fin 5) :
    extractStridedSlice S1x3200 ![c, 0] (transpose S25x3200 [1, 0] P ht) hs (Value.ix3_0 (ix2 p q)) = P (ix2 p ⟨c, hc⟩) :=
  pick P c hc hs ht p _ rfl

/-- Entry (p, q) of the first output block is the chained rate q of sample p of the loaded blocks. -/
theorem E2_at (P0 P1 : Vec Ideal S3200x25 .f32) (p : Fin 3200) (q : Fin 5) :
    Value.E2 (F := Ideal) P0 P1 (ix2 p q) = chain (row P0 p) (row P1 p) q := by
  match q with
  | ⟨0, _⟩ => rfl
  | ⟨1, h⟩ =>
    show (mulf (mulf _ _) _) (Value.ix2_0 (ix2 p ⟨1, h⟩)) = _
    simp only [mulf_apply, pick2 _ 20 (by decide), pick2 _ 21 (by decide), pick2 _ 16 (by decide)]
    rfl
  | ⟨2, h⟩ =>
    show (addf (mulf _ _) (mulf (mulf _ _) _)) (Value.ix2_0 (ix2 p ⟨2, h⟩)) = _
    simp only [mulf_apply, addf_apply, pick2 _ 20 (by decide), pick2 _ 22 (by decide), pick2 _ 16 (by decide),
      pick2 _ 17 (by decide), pick2 _ 12 (by decide)]
    rfl
  | ⟨3, h⟩ =>
    show (addf (addf (mulf _ _) (mulf _ _)) (mulf (mulf _ _) _)) (Value.ix2_0 (ix2 p ⟨3, h⟩)) = _
    simp only [mulf_apply, addf_apply, pick2 _ 20 (by decide), pick2 _ 23 (by decide), pick2 _ 16 (by decide),
      pick2 _ 18 (by decide), pick2 _ 12 (by decide), pick2 _ 13 (by decide), pick2 _ 8 (by decide)]
    rfl
  | ⟨4, h⟩ =>
    show (addf (addf (addf (mulf _ _) (mulf _ _)) (mulf _ _)) (mulf (mulf _ _) _)) (Value.ix2_0 (ix2 p ⟨4, h⟩)) = _
    simp only [mulf_apply, addf_apply, pick2 _ 20 (by decide), pick2 _ 24 (by decide), pick2 _ 16 (by decide),
      pick2 _ 19 (by decide), pick2 _ 12 (by decide), pick2 _ 14 (by decide), pick2 _ 8 (by decide),
      pick2 _ 9 (by decide), pick2 _ 4 (by decide)]
    rfl
  | ⟨n + 5, h⟩ => exact absurd h (Nat.not_lt.2 (Nat.le_add_left _ _))

/-- Entry (p, q) of the second output block is the complement-chain rate q of sample p of the loaded blocks. -/
theorem E3_at (P0 P1 : Vec Ideal S3200x25 .f32) (p : Fin 3200) (q : Fin 5) :
    Value.E3 (F := Ideal) P0 P1 (ix2 p q) = compl (row P0 p) (row P1 p) q := by
  match q with
  | ⟨0, _⟩ => rfl
  | ⟨1, h⟩ =>
    show (mulf (mulf _ _) _) (Value.ix3_0 (ix2 p ⟨1, h⟩)) = _
    simp only [mulf_apply, subf_apply, broadcast_apply, pick3 _ 20 (by decide), pick3 _ 16 (by decide)]
    rfl
  | ⟨2, h⟩ =>
    show (mulf (mulf _ _) _) (Value.ix3_0 (ix2 p ⟨2, h⟩)) = _
    simp only [mulf_apply, subf_apply, broadcast_apply, pick3 _ 20 (by decide), pick3 _ 16 (by decide),
      pick3 _ 12 (by decide)]
    rfl
  | ⟨3, h⟩ =>
    show (mulf (mulf _ _) _) (Value.ix3_0 (ix2 p ⟨3, h⟩)) = _
    simp only [mulf_apply, subf_apply, broadcast_apply, pick3 _ 20 (by decide), pick3 _ 16 (by decide),
      pick3 _ 12 (by decide), pick3 _ 8 (by decide)]
    rfl
  | ⟨4, h⟩ =>
    show (mulf (mulf _ _) _) (Value.ix3_0 (ix2 p ⟨4, h⟩)) = _
    simp only [mulf_apply, subf_apply, broadcast_apply, pick3 _ 20 (by decide), pick3 _ 16 (by decide),
      pick3 _ 12 (by decide), pick3 _ 8 (by decide), pick3 _ 4 (by decide)]
    rfl
  | ⟨n + 5, h⟩ => exact absurd h (Nat.not_lt.2 (Nat.le_add_left _ _))

theorem hz : (![0, 0] : Fin 2 → Nat) = fun _ => 0 := funext fun a => by fin_cases a <;> rfl

/-- The first output block after the body, as a function of the two input blocks. -/
theorem out2_eq (x0 x1 : Vec Ideal S3200x25 .f32) : out0_2 (F := Ideal) x0 x1 = chainRows x0 x1 := by
  funext y
  obtain ⟨p, q, rfl⟩ : ∃ (p : Fin 3200) (q : Fin 5), y = ix2 p q := ⟨y 0, y 1, eq_ix2 y⟩
  unfold out0_2
  rw [Value.canon2_eq, E2_at]
  simp only [View.ld_unit_zero (S := S3200x25) hz]
  rfl

/-- The second output block after the body, as a function of the two input blocks. -/
theorem out3_eq (x0 x1 : Vec Ideal S3200x25 .f32) : out0_3 (F := Ideal) x0 x1 = complRows x0 x1 := by
  funext y
  obtain ⟨p, q, rfl⟩ : ∃ (p : Fin 3200) (q : Fin 5), y = ix2 p q := ⟨y 0, y 1, eq_ix2 y⟩
  unfold out0_3
  rw [Value.canon3_eq, E3_at]
  simp only [View.ld_unit_zero (S := S3200x25) hz]
  rfl

end Cert.KernelIdeal.Block

end
-- ==== Proof.ArrayRates.lean ====
/-
  From blocks to arrays: what the kernel's two output arrays hold after the run.

  The grid has 625 points; point t stages rows 3200·t … 3200·t + 3199 of both inputs and writes back the same rows of
  both outputs (every window's block index is (t, 0)). The body's result block is `Rates.chainRows` /
  `Rates.complRows` of the two staged blocks (Proof/BlockRates.lean), and those act row by row, so what point t writes back
  is block t of `chainRows` / `complRows` of the whole input arrays. The 625 blocks tile the 2,000,000 rows (row r lies
  in block r / 3200), so the whole output arrays are `chainRows` and `complRows` of the inputs.
-/
import proofs.«145309_j19078244729512_2_alg».proof.Proof.Gen.KernelIdeal.Value
import proofs.«145309_j19078244729512_2_alg».proof.Proof.BlockRates
import Idealize.ShloMosaic.Lib.Pipeline.Value
import Idealize.ShloMosaic.Lib.ValueIdx

noncomputable section

namespace Cert.Rates

open Idealize.ShloMosaic Idealize.ShloMosaic.ValueIdx

/-- `chainRows` at two entries agrees when the entries are in the same column and the two rows hold the same numbers. -/
theorem chainRows_eq_of_rows {R R' : Nat} (x msk : (⟨2, ![R, 25]⟩ : Shape).Idx → EReal)
    (x' msk' : (⟨2, ![R', 25]⟩ : Shape).Idx → EReal) (r : Fin R) (r' : Fin R') (q : Fin 5)
    (i' : (⟨2, ![R', 5]⟩ : Shape).Idx) (h0 : (i' 0).val = r'.val) (h1 : (i' 1).val = q.val)
    (hx : ∀ k : Fin 25, x (ix2 r k) = x' (ix2 r' k)) (hm : ∀ k : Fin 25, msk (ix2 r k) = msk' (ix2 r' k)) :
    chainRows x msk (ix2 r q) = chainRows x' msk' i' := by
  obtain rfl : i' = ix2 r' q := by
    funext a; apply Fin.ext
    match a with
    | ⟨0, _⟩ => exact h0
    | ⟨1, _⟩ => exact h1
  rw [chainRows_apply, chainRows_apply, show row x r = row x' r' from funext hx, show row msk r = row msk' r' from funext hm]

/-- The same for `complRows`. -/
theorem complRows_eq_of_rows {R R' : Nat} (x msk : (⟨2, ![R, 25]⟩ : Shape).Idx → EReal)
    (x' msk' : (⟨2, ![R', 25]⟩ : Shape).Idx → EReal) (r : Fin R) (r' : Fin R') (q : Fin 5)
    (i' : (⟨2, ![R', 5]⟩ : Shape).Idx) (h0 : (i' 0).val = r'.val) (h1 : (i' 1).val = q.val)
    (hx : ∀ k : Fin 25, x (ix2 r k) = x' (ix2 r' k)) (hm : ∀ k : Fin 25, msk (ix2 r k) = msk' (ix2 r' k)) :
    complRows x msk (ix2 r q) = complRows x' msk' i' := by
  obtain rfl : i' = ix2 r' q := by
    funext a; apply Fin.ext
    match a with
    | ⟨0, _⟩ => exact h0
    | ⟨1, _⟩ => exact h1
  rw [complRows_apply, complRows_apply, show row x r = row x' r' from funext hx, show row msk r = row msk' r' from funext hm]

end Cert.Rates

namespace Cert.KernelIdeal.Whole

open Cert.KernelIdeal Cert.KernelIdeal.Gen Idealize.ShloMosaic Idealize.ShloMosaic.TcCoe Idealize.SL.Sem
open Idealize.ShloMosaic.ValueIdx Cert.Rates
open Idealize.ShloMosaic.Pipeline (Dat)

variable (m : (ℓ : Loc nD τ sig) → Buf (Elt Ideal) ℓ) (ρ : Dev nD → PrngReg)

/-- Every window's block index at point t is (t, 0): decided over the 625 points. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, k) of input window w's block at point t is entry (3200·t + p, k) of its array. -/
theorem iblk0_at (c : Dev nD) (t : Fin cfg0.N) (p : Fin 3200) (k : Fin 25) (r' : Fin 2000000)
    (hr : r'.val = t.val * 3200 + p.val) :
    (iblk m c 0 t : Vec Ideal S3200x25 .f32) (ix2 p k) = (V m c main_arg0 : S2000000x25.Idx → EReal) (ix2 r' k) := by
  obtain ⟨e00, e01, -⟩ := idx_rows t
  show V m c main_arg0 (((cfg0.win 0).blk t).view.emb (ix2 p k)) = V m c main_arg0 (ix2 r' k)
  refine congrArg _ (funext fun a => Fin.ext ?_)
  match a with
  | ⟨0, _⟩ => show win0_0.index t (0 : Fin 2) * 3200 + 1 * p.val = r'.val; rw [e00, hr]; omega
  | ⟨1, _⟩ => show win0_0.index t (1 : Fin 2) * 25 + 1 * k.val = k.val; rw [e01]; omega

theorem iblk1_at (c : Dev nD) (t : Fin cfg0.N) (p : Fin 3200) (k : Fin 25) (r' : Fin 2000000)
    (hr : r'.val = t.val * 3200 + p.val) :
    (iblk m c 1 t : Vec Ideal S3200x25 .f32) (ix2 p k) = (V m c main_arg1 : S2000000x25.Idx → EReal) (ix2 r' k) := by
  obtain ⟨-, -, e10, e11, -⟩ := idx_rows t
  show V m c main_arg1 (((cfg0.win 1).blk t).view.emb (ix2 p k)) = V m c main_arg1 (ix2 r' k)
  refine congrArg _ (funext fun a => Fin.ext ?_)
  match a with
  | ⟨0, _⟩ => show win0_1.index t (0 : Fin 2) * 3200 + 1 * p.val = r'.val; rw [e10, hr]; omega
  | ⟨1, _⟩ => show win0_1.index t (1 : Fin 2) * 25 + 1 * k.val = k.val; rw [e11]; omega

/-- What point t writes back to the first output is block t of the chained rates of the whole inputs. -/
theorem flushed2_eq (c : Dev nD) (t : Fin cfg0.N) :
    (dats m 0 c).flushed 2 t = ((cfg0.win 2).blk t).view.read (Elt Ideal)
      (chainRows (R := 2000000) (V m c main_arg0) (V m c main_arg1)) := by
  rw [Value.flushed2, Block.out2_eq]
  obtain ⟨-, -, -, -, e20, e21, -⟩ := idx_rows t
  have hN : t.val < 625 := Nat.lt_of_lt_of_eq t.isLt (N_0 : cfg0.N = 625)
  funext y
  obtain ⟨p, q, rfl⟩ : ∃ (p : Fin 3200) (q : Fin 5), y = ix2 p q := ⟨y 0, y 1, eq_ix2 y⟩
  have hp : p.val < 3200 := p.isLt
  show chainRows (R := 3200) (iblk m c 0 t) (iblk m c 1 t) (ix2 p q)
    = chainRows (R := 2000000) (V m c main_arg0) (V m c main_arg1) (((cfg0.win 2).blk t).view.emb (ix2 p q))
  refine chainRows_eq_of_rows _ _ _ _ p ⟨t.val * 3200 + p.val, by omega⟩ q _ ?_ ?_
    (fun k => iblk0_at m c t p k _ rfl) (fun k => iblk1_at m c t p k _ rfl)
  · show win0_2.index t (0 : Fin 2) * 3200 + 1 * p.val = t.val * 3200 + p.val; rw [e20]; omega
  · show win0_2.index t (1 : Fin 2) * 5 + 1 * q.val = q.val; rw [e21]; omega

/-- What point t writes back to the second output is block t of the complement-chain rates of the whole inputs. -/
theorem flushed3_eq (c : Dev nD) (t : Fin cfg0.N) :
    (dats m 0 c).flushed 3 t = ((cfg0.win 3).blk t).view.read (Elt Ideal)
      (complRows (R := 2000000) (V m c main_arg0) (V m c main_arg1)) := by
  rw [Value.flushed3, Block.out3_eq]
  obtain ⟨-, -, -, -, -, -, e30, e31⟩ := idx_rows t
  have hN : t.val < 625 := Nat.lt_of_lt_of_eq t.isLt (N_0 : cfg0.N = 625)
  funext y
  obtain ⟨p, q, rfl⟩ : ∃ (p : Fin 3200) (q : Fin 5), y = ix2 p q := ⟨y 0, y 1, eq_ix2 y⟩
  have hp : p.val < 3200 := p.isLt
  show complRows (R := 3200) (iblk m c 0 t) (iblk m c 1 t) (ix2 p q)
    = complRows (R := 2000000) (V m c main_arg0) (V m c main_arg1) (((cfg0.win 3).blk t).view.emb (ix2 p q))
  refine complRows_eq_of_rows _ _ _ _ p ⟨t.val * 3200 + p.val, by omega⟩ q _ ?_ ?_
    (fun k => iblk0_at m c t p k _ rfl) (fun k => iblk1_at m c t p k _ rfl)
  · show win0_3.index t (0 : Fin 2) * 3200 + 1 * p.val = t.val * 3200 + p.val; rw [e30]; omega
  · show win0_3.index t (1 : Fin 2) * 5 + 1 * q.val = q.val; rw [e31]; omega

/-- An index of the first output array is in point t's block iff each coordinate is in the block's range. -/
theorem mem_blk2 (t : Fin cfg0.N) (i : S2000000x5.Idx) :
    i ∈ ((cfg0.win 2).blk t).view.set ↔ ∀ a : Fin 2, win0_2.index t a * S3200x5.size a ≤ (i a).val
      ∧ (i a).val < win0_2.index t a * S3200x5.size a + S3200x5.size a := by
  show i ∈ ((View.whole main_v0_0).slice (win0_2.rect t)).set ↔ _
  rw [View.set_slice_whole, Rect.mem_set_unit]
  exact Iff.rfl

theorem mem_blk3 (t : Fin cfg0.N) (i : S2000000x5.Idx) :
    i ∈ ((cfg0.win 3).blk t).view.set ↔ ∀ a : Fin 2, win0_3.index t a * S3200x5.size a ≤ (i a).val
      ∧ (i a).val < win0_3.index t a * S3200x5.size a + S3200x5.size a := by
  show i ∈ ((View.whole main_v0_1).slice (win0_3.rect t)).set ↔ _
  rw [View.set_slice_whole, Rect.mem_set_unit]
  exact Iff.rfl

/-- The point whose block holds row r is r / 3200. -/
theorem point_of (i : S2000000x5.Idx) : ∃ t : Fin cfg0.N, t.val = (i 0).val / 3200 := by
  have hi0 : (i 0).val < 2000000 := (i 0).isLt
  exact ⟨⟨(i 0).val / 3200, by rw [show cfg0.N = 625 from N_0]; omega⟩, rfl⟩

/-- Every entry of the first output array is in some point's block. -/
theorem cover2 (i : S2000000x5.Idx) :
    ∃ t : Fin cfg0.N, (cfg0.win 2).flush t = true ∧ i ∈ ((cfg0.win 2).blk t).view.set := by
  have hi1 : (i 1).val < 5 := (i 1).isLt
  obtain ⟨t, ht⟩ := point_of i
  obtain ⟨-, -, -, -, e20, e21, -⟩ := idx_rows t
  refine ⟨t, flush0_2 t, ?_⟩
  rw [mem_blk2]
  intro a
  match a with
  | ⟨0, _⟩ =>
    show win0_2.index t (0 : Fin 2) * 3200 ≤ (i 0).val ∧ (i 0).val < win0_2.index t (0 : Fin 2) * 3200 + 3200
    rw [e20, ht]; omega
  | ⟨1, _⟩ =>
    show win0_2.index t (1 : Fin 2) * 5 ≤ (i 1).val ∧ (i 1).val < win0_2.index t (1 : Fin 2) * 5 + 5
    rw [e21]; omega

/-- Every entry of the second output array is in some point's block. -/
theorem cover3 (i : S2000000x5.Idx) :
    ∃ t : Fin cfg0.N, (cfg0.win 3).flush t = true ∧ i ∈ ((cfg0.win 3).blk t).view.set := by
  have hi1 : (i 1).val < 5 := (i 1).isLt
  obtain ⟨t, ht⟩ := point_of i
  obtain ⟨-, -, -, -, -, -, e30, e31⟩ := idx_rows t
  refine ⟨t, flush0_3 t, ?_⟩
  rw [mem_blk3]
  intro a
  match a with
  | ⟨0, _⟩ =>
    show win0_3.index t (0 : Fin 2) * 3200 ≤ (i 0).val ∧ (i 0).val < win0_3.index t (0 : Fin 2) * 3200 + 3200
    rw [e30, ht]; omega
  | ⟨1, _⟩ =>
    show win0_3.index t (1 : Fin 2) * 5 ≤ (i 1).val ∧ (i 1).val < win0_3.index t (1 : Fin 2) * 5 + 5
    rw [e31]; omega

/-- The first output array after the run is the chained rates of the inputs. -/
theorem final2 (c : Dev nD) : (dats m 0 c).arrAt 2 cfg0.N
    = chainRows (R := 2000000) (m ((c : Thread nD τ).loc main_arg0)) (m ((c : Thread nD τ).loc main_arg1)) :=
  (dats m 0 c).arrAt_eq_of_cover 2 _ (fun t _ => flushed2_eq m c t) cover2

/-- The second output array after the run is the complement-chain rates of the inputs. -/
theorem final3 (c : Dev nD) : (dats m 0 c).arrAt 3 cfg0.N
    = complRows (R := 2000000) (m ((c : Thread nD τ).loc main_arg0)) (m ((c : Thread nD τ).loc main_arg1)) :=
  (dats m 0 c).arrAt_eq_of_cover 3 _ (fun t _ => flushed3_eq m c t) cover3

/-- The kernel's run, read: both output arrays as functions of the argument arrays, the arguments unchanged. -/
theorem run : θ_run defs (onTc (τ := τ) (main (F := Ideal))) ⟨m, fun _ => 0, ρ⟩ fun r => ∀ c : Dev nD,
      r.2.mem ((c : Thread nD τ).loc main_v0_0)
        = chainRows (R := 2000000) (m ((c : Thread nD τ).loc main_arg0)) (m ((c : Thread nD τ).loc main_arg1))
      ∧ r.2.mem ((c : Thread nD τ).loc main_v0_1)
        = complRows (R := 2000000) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (Value.run_blocks m ρ)

end Cert.KernelIdeal.Whole

end
-- ==== Proof.RefRates.lean ====
/-
  What the reference computes, entry by entry.

  The reference recasts each input [B, 25] as [B, 5, 5], takes grid entry (i, j) of every sample as a vector of length B
  (a slice [B, 1, 1] recast to [B]), combines such vectors entry by entry, lays each of the five result vectors out as a
  column [B, 1] and joins the five columns side by side into [B, 5].

  Read at (r, q) the joined array is column q at row r; a column at (r, 0) is its vector at r; and entry (i, j) of sample
  r of the recast array is entry 5·i + j of row r of the input, because (r·5 + i)·5 + j = r·25 + (5·i + j). So both
  results are `Rates.chainRows` / `Rates.complRows` of the two inputs, with no arithmetic law involved.
-/
import proofs.«145309_j19078244729512_2_alg».proof.Proof.RefRun
import proofs.«145309_j19078244729512_2_alg».proof.Proof.Rates
import Idealize.ShloMosaic.Lib.Pipeline.Value
import Idealize.ShloMosaic.Lib.ValueIdx

noncomputable section

namespace Cert.ReferenceIdeal.Ref

open Cert.ReferenceIdeal Idealize.ShloMosaic Idealize.ShloMosaic.ValueIdx Cert.Rates

/-- Grid entry (i, j) of sample `r`: the input recast to [R, 5, 5], sliced at (·, i, j) and recast to a vector, read at
    `r`, is entry 5·i + j of row `r` of the input. -/
theorem tier_at {R : Nat} (x : (⟨2, ![R, 25]⟩ : Shape).Idx → EReal) (i j : Nat) (hi : i < 5) (hj : j < 5)
    (hc : (⟨2, ![R, 25]⟩ : Shape).ShapeCasts ⟨3, ![R, 5, 5]⟩)
    (hs : (⟨3, ![R, 5, 5]⟩ : Shape).Slices ![0, i, j] ⟨3, ![R, 1, 1]⟩)
    (hr : (⟨3, ![R, 1, 1]⟩ : Shape).ShapeCasts ⟨1, ![R]⟩) (r : Fin R) :
    shapeCast (⟨1, ![R]⟩ : Shape) (extractStridedSlice (⟨3, ![R, 1, 1]⟩ : Shape) ![0, i, j]
        (shapeCast (⟨3, ![R, 5, 5]⟩ : Shape) x hc) hs) hr (ix1 r)
      = x (ix2 r ⟨5 * i + j, by omega⟩) := by
  refine (shapeCast_apply _ hr (ix1 r) (ix3 r 0 0) ?_).trans
    ((extractStridedSlice_apply ![0, i, j] _ hs (ix3 r 0 0) (ix3 r ⟨i, hi⟩ ⟨j, hj⟩) (fun a => ?_)).trans
      (shapeCast_apply x hc (ix3 r ⟨i, hi⟩ ⟨j, hj⟩) (ix2 r ⟨5 * i + j, by omega⟩) ?_))
  · rw [Shape.rowMajor_val_three, Shape.rowMajor_val_one]
    show (r.val * 1 + 0) * 1 + 0 = r.val
    omega
  · match a with
    | ⟨0, _⟩ => show r.val = 0 + r.val; omega
    | ⟨1, _⟩ => show i = i + 0; omega
    | ⟨2, _⟩ => show j = j + 0; omega
  · rw [Shape.rowMajor_val_two, Shape.rowMajor_val_three]
    show r.val * 25 + (5 * i + j) = (r.val * 5 + i) * 5 + j
    omega

/-- A vector laid out as a one-column matrix, read at (r, 0), is the vector at r. -/
theorem col_at {R : Nat} (v : (⟨1, ![R]⟩ : Shape).Idx → EReal)
    (h : (⟨1, ![R]⟩ : Shape).BroadcastsInDim ⟨2, ![R, 1]⟩ ![0]) (r : Fin R) (u : Fin 1) :
    broadcastInDim (⟨2, ![R, 1]⟩ : Shape) ![0] h v (ix2 r u) = v (ix1 r) :=
  broadcastInDim_apply _ h v (ix2 r u) (ix1 r) (fun a => match a with
    | ⟨0, _⟩ => by
      have hr : r.val < R := r.isLt
      show r.val = if R = 1 then 0 else r.val
      split <;> omega)

/-- A float word spread along a vector is that word's value at every position. -/
theorem splat_at {R : Nat} (w : BitVec 32) (h : (⟨0, ![]⟩ : Shape).BroadcastsInDim ⟨1, ![R]⟩ ![])
    (z : (⟨1, ![R]⟩ : Shape).Idx) :
    broadcastInDim (⟨1, ![R]⟩ : Shape) ![] h (constant (F := Ideal) (⟨0, ![]⟩ : Shape) .f32 w) z = Ideal.ofBits .f32 w :=
  broadcastInDim_apply _ h _ z ix0 (fun a => a.elim0)

/-- One of five things, by number. -/
abbrev pick5 {α : Type} (f0 f1 f2 f3 f4 : α) : Fin 5 → α := fun q => match q with
  | ⟨0, _⟩ => f0 | ⟨1, _⟩ => f1 | ⟨2, _⟩ => f2 | ⟨3, _⟩ => f3 | ⟨4, _⟩ => f4
  | ⟨_ + 5, h⟩ => absurd h (Nat.not_lt.2 (Nat.le_add_left _ _))

/-- Five one-column matrices joined side by side, read at (r, q), is column q at (r, 0). -/
theorem join5_at {R : Nat} (f0 f1 f2 f3 f4 : (⟨2, ![R, 1]⟩ : Shape).Idx → EReal)
    (h : Shape.Concatenates [(⟨2, ![R, 1]⟩ : Shape), ⟨2, ![R, 1]⟩, ⟨2, ![R, 1]⟩, ⟨2, ![R, 1]⟩, ⟨2, ![R, 1]⟩] ⟨2, ![R, 5]⟩ 1)
    (r : Fin R) (q : Fin 5) :
    concatenate (⟨2, ![R, 5]⟩ : Shape) 1 [⟨⟨2, ![R, 1]⟩, f0⟩, ⟨⟨2, ![R, 1]⟩, f1⟩, ⟨⟨2, ![R, 1]⟩, f2⟩, ⟨⟨2, ![R, 1]⟩, f3⟩, ⟨⟨2, ![R, 1]⟩, f4⟩] h (ix2 r q)
      = pick5 f0 f1 f2 f3 f4 q (ix2 r 0) := by
  show concatenate (⟨2, ![R, 5]⟩ : Shape) 1 (List.ofFn fun n : Fin 5 =>
    (⟨⟨2, ![R, 1]⟩, pick5 f0 f1 f2 f3 f4 n⟩ : (s : Shape) × (s.Idx → EReal))) _ (ix2 r q) = _
  exact concatenate_ofFn_apply (t := ⟨2, ![R, 5]⟩) (s₁ := ⟨2, ![R, 1]⟩) (1 : Fin 2) (pick5 f0 f1 f2 f3 f4) _ rfl 1 rfl
    (ix2 r q) q (by show q.val / 1 = q.val; omega) (ix2 r 0) (by show 0 = q.val % 1; omega)
    (fun b hb => by match b with | ⟨0, _⟩ => rfl | ⟨1, _⟩ => exact absurd rfl hb)

variable (m : (ℓ : Loc nD τ sig) → Buf (Elt Ideal) ℓ) (c : Dev nD)

/-- The reference's first result is the chained rates of every sample. -/
theorem res0_eq : RunP.res_main_v78 (F := Ideal) m c
    = chainRows (R := 2000000) (m ((c.tc : Thread nD τ).loc main_arg0)) (m ((c.tc : Thread nD τ).loc main_arg1)) := by
  funext i
  obtain ⟨r, q, rfl⟩ : ∃ (r : Fin 2000000) (q : Fin 5), i = ix2 r q := ⟨i 0, i 1, eq_ix2 i⟩
  unfold RunP.res_main_v78
  refine (join5_at _ _ _ _ _ _ r q).trans ?_
  match q with
  | ⟨0, h⟩ =>
    refine (col_at _ _ r 0).trans ?_
    exact splat_at _ _ _
  | ⟨1, h⟩ =>
    refine (col_at _ _ r 0).trans ?_
    simp only [mulf_apply, tier_at _ 4 0 (by decide) (by decide), tier_at _ 4 1 (by decide) (by decide),
      tier_at _ 3 1 (by decide) (by decide)]
    rfl
  | ⟨2, h⟩ =>
    refine (col_at _ _ r 0).trans ?_
    simp only [mulf_apply, addf_apply, tier_at _ 4 0 (by decide) (by decide), tier_at _ 4 2 (by decide) (by decide),
      tier_at _ 3 1 (by decide) (by decide), tier_at _ 3 2 (by decide) (by decide), tier_at _ 2 2 (by decide) (by decide)]
    rfl
  | ⟨3, h⟩ =>
    refine (col_at _ _ r 0).trans ?_
    simp only [mulf_apply, addf_apply, tier_at _ 4 0 (by decide) (by decide), tier_at _ 4 3 (by decide) (by decide),
      tier_at _ 3 1 (by decide) (by decide), tier_at _ 3 3 (by decide) (by decide), tier_at _ 2 2 (by decide) (by decide),
      tier_at _ 2 3 (by decide) (by decide), tier_at _ 1 3 (by decide) (by decide)]
    rfl
  | ⟨4, h⟩ =>
    refine (col_at _ _ r 0).trans ?_
    simp only [mulf_apply, addf_apply, tier_at _ 4 0 (by decide) (by decide), tier_at _ 4 4 (by decide) (by decide),
      tier_at _ 3 1 (by decide) (by decide), tier_at _ 3 4 (by decide) (by decide), tier_at _ 2 2 (by decide) (by decide),
      tier_at _ 2 4 (by decide) (by decide), tier_at _ 1 3 (by decide) (by decide), tier_at _ 1 4 (by decide) (by decide),
      tier_at _ 0 4 (by decide) (by decide)]
    rfl
  | ⟨n + 5, h⟩ => exact absurd h (Nat.not_lt.2 (Nat.le_add_left _ _))

/-- The reference's second result is the complement-chain rates of every sample. -/
theorem res1_eq : RunP.res_main_v134 (F := Ideal) m c
    = complRows (R := 2000000) (m ((c.tc : Thread nD τ).loc main_arg0)) (m ((c.tc : Thread nD τ).loc main_arg1)) := by
  funext i
  obtain ⟨r, q, rfl⟩ : ∃ (r : Fin 2000000) (q : Fin 5), i = ix2 r q := ⟨i 0, i 1, eq_ix2 i⟩
  unfold RunP.res_main_v134
  refine (join5_at _ _ _ _ _ _ r q).trans ?_
  match q with
  | ⟨0, h⟩ =>
    refine (col_at _ _ r 0).trans ?_
    exact splat_at _ _ _
  | ⟨1, h⟩ =>
    refine (col_at _ _ r 0).trans ?_
    simp only [mulf_apply, subf_apply, splat_at, tier_at _ 4 0 (by decide) (by decide),
      tier_at _ 3 1 (by decide) (by decide)]
    rfl
  | ⟨2, h⟩ =>
    refine (col_at _ _ r 0).trans ?_
    simp only [mulf_apply, subf_apply, splat_at, tier_at _ 4 0 (by decide) (by decide),
      tier_at _ 3 1 (by decide) (by decide), tier_at _ 2 2 (by decide) (by decide)]
    rfl
  | ⟨3, h⟩ =>
    refine (col_at _ _ r 0).trans ?_
    simp only [mulf_apply, subf_apply, splat_at, tier_at _ 4 0 (by decide) (by decide),
      tier_at _ 3 1 (by decide) (by decide), tier_at _ 2 2 (by decide) (by decide), tier_at _ 1 3 (by decide) (by decide)]
    rfl
  | ⟨4, h⟩ =>
    refine (col_at _ _ r 0).trans ?_
    simp only [mulf_apply, subf_apply, splat_at, tier_at _ 4 0 (by decide) (by decide),
      tier_at _ 3 1 (by decide) (by decide), tier_at _ 2 2 (by decide) (by decide), tier_at _ 1 3 (by decide) (by decide),
      tier_at _ 0 4 (by decide) (by decide)]
    rfl
  | ⟨n + 5, h⟩ => exact absurd h (Nat.not_lt.2 (Nat.le_add_left _ _))

end Cert.ReferenceIdeal.Ref

end
-- ==== Proof.lean ====
/-
  The proof of `Cert.Claim` for the returning-rate kernel.

  Each sample is a 5 × 5 grid of probabilities with a mask, given as a row of 25 numbers; two rows of five rates are
  computed from it (Proof/Rates.lean: `chain` and `compl`). The kernel handles 3200 samples per grid point: it
  transposes the staged blocks so that one grid entry of all samples is one lane-dense row, combines rows, stacks five
  result rows and transposes back. The reference recasts the inputs to [B, 5, 5], slices one grid entry of every sample
  as a vector, combines vectors and stacks the results as columns. Both evaluate the SAME arithmetic expressions with the
  same grouping, so on the extended reals the two programs agree entry by entry with no law of arithmetic and no use of
  the finiteness precondition; only the layouts differ:
    * the kernel's output arrays are `chainRows` / `complRows` of its inputs (Proof/BlockRates.lean for one block,
      Proof/ArrayRates.lean for the 625 blocks tiling the arrays),
    * the reference's results are the same two functions of its inputs (Proof/RefRates.lean, over the reference's run in
      Proof/RefRun.lean).
  The three frames are the kernels' generated frames and the reference's run with the results dropped; the ideal pass
  rewrote nothing, so `preserves` is trivial.
-/
import proofs.«145309_j19078244729512_2_alg».proof.Defs
import proofs.«145309_j19078244729512_2_alg».proof.Proof.Gen.Kernel
import proofs.«145309_j19078244729512_2_alg».proof.Proof.Gen.Kernel.Skeleton
import proofs.«145309_j19078244729512_2_alg».proof.Proof.Gen.Kernel.Launch
import proofs.«145309_j19078244729512_2_alg».proof.Proof.Gen.Kernel.Points
import proofs.«145309_j19078244729512_2_alg».proof.Proof.Gen.Kernel.Frame
import proofs.«145309_j19078244729512_2_alg».proof.Proof.Gen.KernelIdeal
import proofs.«145309_j19078244729512_2_alg».proof.Proof.Gen.KernelIdeal.Skeleton
import proofs.«145309_j19078244729512_2_alg».proof.Proof.Gen.KernelIdeal.Launch
import proofs.«145309_j19078244729512_2_alg».proof.Proof.Gen.KernelIdeal.Points
import proofs.«145309_j19078244729512_2_alg».proof.Proof.Gen.KernelIdeal.Frame
import proofs.«145309_j19078244729512_2_alg».proof.Proof.Gen.ReferenceIdeal
import proofs.«145309_j19078244729512_2_alg».proof.Proof.Gen.Pre_finite_inputs
import proofs.«145309_j19078244729512_2_alg».proof.Proof.Gen.KernelIdeal.Value
import proofs.«145309_j19078244729512_2_alg».proof.Proof.RefRun
import proofs.«145309_j19078244729512_2_alg».proof.Proof.ArrayRates
import proofs.«145309_j19078244729512_2_alg».proof.Proof.RefRates
import Idealize.ShloMosaic.Adequacy
import Idealize.ShloMosaic.Init

noncomputable section

namespace Cert.Proof

open Idealize.ShloMosaic Idealize.SL.Sem Cert.Rates

/-- The kernel runs, faults nowhere and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.RunP.run (F := Ideal) m ρ)

/-- The ideal pass rewrote no operation. -/
theorem preserves : Cert.preserves_Kernel_KernelIdeal := trivial

/-- From memories agreeing on the two inputs, the idealized kernel's output arrays and the idealized reference's results
    are both the chained rates and the complement-chain rates of every sample. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ?_) (Cert.ReferenceIdeal.RunP.run (F := Ideal) m' ρ')
  refine ⟨(h c).1.trans ?_, (h c).2.1.trans ?_, (h c).2.2.1, (h c).2.2.2⟩
  · rw [Cert.ReferenceIdeal.Ref.res0_eq, (hagree c).1, (hagree c).2]
  · rw [Cert.ReferenceIdeal.Ref.res1_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
